-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1260 : Shape := ⟨2, ![65536, 1260]⟩
abbrev S128x1260 : Shape := ⟨2, ![128, 1260]⟩
abbrev S128 : Shape := ⟨1, ![128]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S65536x1260 : S_.BroadcastsInDim S65536x1260 (![] : Fin 0 → Fin S65536x1260.rank)
  reducesTo_S65536x1260_S_d0_1 : S65536x1260.ReducesTo [0, 1] S_
  h_S_ : 0 < S_.numel
  bcast_S_S128x1260 : S_.BroadcastsInDim S128x1260 (![] : Fin 0 → Fin S128x1260.rank)
  reducesTo_S128x1260_S_d0_1 : S128x1260.ReducesTo [0, 1] S_
  bcast_S_S128 : S_.BroadcastsInDim S128 (![] : Fin 0 → Fin S128.rank)
  reducesTo_S128_S_d0 : S128.ReducesTo [0] S_
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S32 .f32) (main_arg8 : FVec F S1x32 .f32) (main_arg9 : FVec F S1 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S1x32 .f32 := Host.absf main_arg8
  let main_cst_14 : FVec F S_ .f32 := constant S_ .f32 0x7F800000#32
  let main_v40 : FVec F S1x32 .f32 := broadcastInDim S1x32 ![] bcast_S_S1x32 main_cst_14
  let main_v41 : IVec S1x32 1 := cmpf .olt main_v39 main_v40
  let main_c_15 : IVec S_ 1 := constantI S_ 1 1#1
  let main_v42 : IVec S_ 1 := (fun x v => Host.reduce IntOp.andi x v reducesTo_S1x32_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S32x256 .f32) (main_arg5 : FVec F S32 .f32) (main_arg6 : FVec F S32x32 .f32) (main_arg7 : FVec F S32 .f32) (main_arg8 : FVec F S1x32 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S32x256 .f32 := Host.absf main_arg4
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x1260 .f32) (main_arg1 : FVec F S65536x1260 .f32) (main_arg2 : FVec F S128x1260 .f32) (main_arg3 : FVec F S128 .f32) (main_arg4 : FVec F S32x256 .f32) (main_arg5 : FVec F S32 .f32) (main_arg6 : FVec F S32x32 .f32) (main_arg7 : FVec F S32 .f32) (main_arg8 : FVec F S1x32 .f32) (main_arg9 : FVec F S1 .f32) : IVec S_ 1 :=
  let main_v0 : FVec F S65536x1260 .f32 := Host.absf main_arg0
  let main_cst : FVec F S_ .f32 := constant S_ .f32 0x7F800000#32
  let main_v1 : FVec F S65536x1260 .f32 := broadcastInDim S65536x1260 ![] bcast_S_S65536x1260 main_cst
  let main_v2 : IVec S65536x1260 1 := cmpf .olt main_v0 main_v1
  let main_c : IVec S_ 1 := constantI S_ 1 1#1
  let main_v3 : IVec S_ 1 := (fun x v => Host.reduce IntOp.andi x v reducesTo_S65536x1260_S_d0_1 h_S_) main_v2 main_c
  let main_v4 : FVec F S65536x1260 .f32 := Host.absf main_arg1
  let main_cst_0 : FVec F S_ .f32 := constant S_ .f32 0x7F800000#32
  let main_v5 : FVec F S65536x1260 .f32 := broadcastInDim S65536x1260 ![] bcast_S_S65536x1260 main_cst_0
  let main_v6 : IVec S65536x1260 1 := cmpf .olt main_v4 main_v5
  let main_c_1 : IVec S_ 1 := constantI S_ 1 1#1
  let main_v7 : IVec S_ 1 := (fun x v => Host.reduce IntOp.andi x v reducesTo_S65536x1260_S_d0_1 h_S_) main_v6 main_c_1
  let main_v8 : IVec S_ 1 := andi main_v3 main_v7
  let main_v9 : FVec F S128x1260 .f32 := Host.absf main_arg2
  let main_cst_2 : FVec F S_ .f32 := constant S_ .f32 0x7F800000#32
  let main_v10 : FVec F S128x1260 .f32 := broadcastInDim S128x1260 ![] bcast_S_S128x1260 main_cst_2
  let main_v11 : IVec S128x1260 1 := cmpf .olt main_v9 main_v10
  let main_c_3 : IVec S_ 1 := constantI S_ 1 1#1
  let main_v12 : IVec S_ 1 := (fun x v => Host.reduce IntOp.andi x v reducesTo_S128x1260_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S65536x1260 : Shape := ⟨2, ![65536, 1260]⟩
abbrev S128x1260 : Shape := ⟨2, ![128, 1260]⟩
abbrev S128 : Shape := ⟨1, ![128]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1260x128 : Shape := ⟨2, ![1260, 128]⟩
abbrev S256x32 : Shape := ⟨2, ![256, 32]⟩
abbrev S32x1 : Shape := ⟨2, ![32, 1]⟩
abbrev S1x128 : Shape := ⟨2, ![1, 128]⟩
abbrev S1x1 : Shape := ⟨2, ![1, 1]⟩
abbrev S512x128 : Shape := ⟨2, ![512, 128]⟩
abbrev S1024x1260 : Shape := ⟨2, ![1024, 1260]⟩
abbrev S8x128 : Shape := ⟨2, ![8, 128]⟩
abbrev S1024x128 : Shape := ⟨2, ![1024, 128]⟩
abbrev S1024x256 : Shape := ⟨2, ![1024, 256]⟩
abbrev S1024x32 : Shape := ⟨2, ![1024, 32]⟩
abbrev S1024x1 : Shape := ⟨2, ![1024, 1]⟩
abbrev S65536x1 : Shape := ⟨2, ![65536, 1]⟩

abbrev nBuf : Space → Nat
  | .hbm => 24
  | .vmem => 14
  | .smem => 0
  | _ => 0

abbrev bufTy : (tb : Table) → Fin (tcTables nBuf tb) → BufTy
  | .hbm, ⟨0, _⟩ => ⟨S65536x1260, .f32⟩
  | .hbm, ⟨1, _⟩ => ⟨S65536x1260, .f32⟩
  | .hbm, ⟨2, _⟩ => ⟨S128x1260, .f32⟩
  | .hbm, ⟨3, _⟩ => ⟨S128, .f32⟩
  | .hbm, ⟨4, _⟩ => ⟨S32x256, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S1260x128, .f32⟩
  | .hbm, ⟨11, _⟩ => ⟨S1260x128, .bf16⟩
  | .hbm, ⟨12, _⟩ => ⟨S256x32, .f32⟩
  | .hbm, ⟨13, _⟩ => ⟨S256x32, .bf16⟩
  | .hbm, ⟨14, _⟩ => ⟨S32x32, .f32⟩
  | .hbm, ⟨15, _⟩ => ⟨S32x32, .bf16⟩
  | .hbm, ⟨16, _⟩ => ⟨S32x1, .f32⟩
  | .hbm, ⟨17, _⟩ => ⟨S32x1, .bf16⟩
  | .hbm, ⟨18, _⟩ => ⟨S1x128, .f32⟩
  | .hbm, ⟨19, _⟩ => ⟨S1x32, .f32⟩
  | .hbm, ⟨20, _⟩ => ⟨S1x32, .f32⟩
  | .hbm, ⟨21, _⟩ => ⟨S1x1, .f32⟩
  | .hbm, ⟨22, _⟩ => ⟨S512x128, .f32⟩
  | .hbm, ⟨23, _⟩ => ⟨S65536x1, .f32⟩
  | .local _ .vmem, ⟨0, _⟩ => ⟨S1024x1260, .f32⟩
  | .local _ .vmem, ⟨1, _⟩ => ⟨S1024x1260, .f32⟩
  | .local _ .vmem, ⟨2, _⟩ => ⟨S1024x1260, .f32⟩
  | .local _ .vmem, ⟨3, _⟩ => ⟨S1024x1260, .f32⟩
  | .local _ .vmem, ⟨4, _⟩ => ⟨S1260x128, .bf16⟩
  | .local _ .vmem, ⟨5, _⟩ => ⟨S1x128, .f32⟩
  | .local _ .vmem, ⟨6, _⟩ => ⟨S256x32, .bf16⟩
  | .local _ .vmem, ⟨7, _⟩ => ⟨S1x32, .f32⟩
  | .local _ .vmem, ⟨8, _⟩ => ⟨S32x32, .bf16⟩
  | .local _ .vmem, ⟨9, _⟩ => ⟨S1x32, .f32⟩
  | .local _ .vmem, ⟨10, _⟩ => ⟨S32x1, .bf16⟩
  | .local _ .vmem, ⟨11, _⟩ => ⟨S1x1, .f32⟩
  | .local _ .vmem, ⟨12, _⟩ => ⟨S8x128, .f32⟩
  | .local _ .vmem, ⟨13, _⟩ => ⟨S8x128, .f32⟩
  | _, _ => ⟨S65536x1260, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1260 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1260 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1260x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S128x1260_S1260x128_1_0 : S128x1260.Transposes [1, 0] S1260x128
  bitsLt_bf16_f32 : FTy.bits .bf16 < FTy.bits .f32
  transposes_S32x256_S256x32_1_0 : S32x256.Transposes [1, 0] S256x32
  transposes_S32x32_S32x32_1_0 : S32x32.Transposes [1, 0] S32x32
  transposes_S1x32_S32x1_1_0 : S1x32.Transposes [1, 0] S32x1
  shapeCasts_S128_S1x128 : S128.ShapeCasts S1x128
  shapeCasts_S32_S1x32 : S32.ShapeCasts S1x32
  shapeCasts_S1_S1x1 : S1.ShapeCasts S1x1
  inb_S1260x128_S1260x128_0_0 : ∀ a, (![0, 0] : Fin 2 → Nat) a + S1260x128.size a ≤ S1260x128.size a
  h_S1260x128 : 0 < S1260x128.numel
  shapeCasts_S1260x128_S1260x128 : S1260x128.ShapeCasts S1260x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1024x1260_S1024x1260_0_0 : ∀ a, (![0, 0] : Fin 2 → Nat) a + S1024x1260.size a ≤ S1024x1260.size a
  h_S1024x1260 : 0 < S1024x1260.numel
  broadcasts_S1x128_S1024x128 : S1x128.Broadcasts S1024x128
  concatenates_S1024x128_S1024x128_S1024x256_d1 : Shape.Concatenates [S1024x128, S1024x128] S1024x256 1
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S1024x32 : S1x32.Broadcasts S1024x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x1_S8x128 : S1024x1.ShapeCasts S8x128
  inb_S8x128_S8x128_0_0 : ∀ a, (![0, 0] : Fin 2 → Nat) a + S8x128.size a ≤ S8x128.size a
  h_S8x128 : 0 < S8x128.numel
  shapeCasts_S512x128_S65536x1 : S512x128.ShapeCasts S65536x1
  dot_S1024x1260_S1260x128_S1024x128_1_0_0_1_n_n_wf : DotDims.WF S1024x1260 S1260x128 S1024x128 [1] [0] [0] [1] [] []
  dot_S1024x256_S256x32_S1024x32_1_0_0_1_n_n_wf : DotDims.WF S1024x256 S256x32 S1024x32 [1] [0] [0] [1] [] []
  dot_S1024x32_S32x32_S1024x32_1_0_0_1_n_n_wf : DotDims.WF S1024x32 S32x32 S1024x32 [1] [0] [0] [1] [] []
  dot_S1024x32_S32x1_S1024x1_1_0_0_1_n_n_wf : DotDims.WF S1024x32 S32x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1260.size a ≤ S65536x1260.size a
  hwx0_0 : ∀ i : grid0.Coords, EltTy.bits .f32 = 32 ∨ (Rect.block (s := S65536x1260) S1024x1260.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1260.size a ≤ S65536x1260.size a
  hwx0_1 : ∀ i : grid0.Coords, EltTy.bits .f32 = 32 ∨ (Rect.block (s := S65536x1260) S1024x1260.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1260x128.size a ≤ S1260x128.size a
  hwx0_2 : ∀ i : grid0.Coords, EltTy.bits .bf16 = 32 ∨ (Rect.block (s := S1260x128) S1260x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .bf16 = 32 ∨ (Rect.block (s := S256x32) S256x32.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x32.size a ≤ S32x32.size a
  hwx0_6 : ∀ i : grid0.Coords, EltTy.bits .bf16 = 32 ∨ (Rect.block (s := S32x32) S32x32.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x1.size a ≤ S32x1.size a
  hwx0_8 : ∀ i : grid0.Coords, EltTy.bits .bf16 = 32 ∨ (Rect.block (s := S32x1) S32x1.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S512x128.size a
  hwx0_10 : ∀ i : grid0.Coords, EltTy.bits .f32 = 32 ∨ (Rect.block (s := S512x128) S8x128.size (cc0_transform_10 i) (hinb0_10 i)).WholeWords (EltTy.packing .f32)

variable [Facts₀]

def dot_S1024x1260_S1260x128_S1024x128_1_0_0_1_n_n : DotDims S1024x1260 S1260x128 S1024x128 where
  lhsContracting := [1]
  rhsContracting := [0]
  lhsNonContracting := [0]
  rhsNonContracting := [1]
  lhsBatch := []
  rhsBatch := []
  wf := dot_S1024x1260_S1260x128_S1024x128_1_0_0_1_n_n_wf
def dot_S1024x256_S256x32_S1024x32_1_0_0_1_n_n : DotDims S1024x256 S256x32 S1024x32 where
  lhsContracting := [1]
  rhsContracting := [0]
  lhsNonContracting := [0]
  rhsNonContracting := [1]
  lhsBatch := []
  rhsBatch := []
  wf := dot_S1024x256_S256x32_S1024x32_1_0_0_1_n_n_wf
def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1_S1024x1_1_0_0_1_n_n : DotDims S1024x32 S32x1 S1024x1 where
  lhsContracting := [1]
  rhsContracting := [0]
  lhsNonContracting := [0]
  rhsNonContracting := [1]
  lhsBatch := []
  rhsBatch := []
  wf := dot_S1024x32_S32x1_S1024x1_1_0_0_1_n_n_wf

abbrev win0_0 : Pipeline.Window sig grid0 :=
  Pipeline.Window.ofSpec (Memref.whole main_arg0) S1024x1260.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1260.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1260x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S32x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S32x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x1260 : Shape := ⟨2, ![65536, 1260]⟩
abbrev S128x1260 : Shape := ⟨2, ![128, 1260]⟩
abbrev S128 : Shape := ⟨1, ![128]⟩
abbrev S32x256 : Shape := ⟨2, ![32, 256]⟩
abbrev S32 : Shape := ⟨1, ![32]⟩
abbrev S32x32 : Shape := ⟨2, ![32, 32]⟩
abbrev S1x32 : Shape := ⟨2, ![1, 32]⟩
abbrev S1 : Shape := ⟨1, ![1]⟩
abbrev S1260x128 : Shape := ⟨2, ![1260, 128]⟩
abbrev S65536x128 : Shape := ⟨2, ![65536, 128]⟩
abbrev S1x128 : Shape := ⟨2, ![1, 128]⟩
abbrev S_ : Shape := ⟨0, ![]⟩
abbrev S65536x256 : Shape := ⟨2, ![65536, 256]⟩
abbrev S256x32 : Shape := ⟨2, ![256, 32]⟩
abbrev S65536x32 : Shape := ⟨2, ![65536, 32]⟩
abbrev S32x1 : Shape := ⟨2, ![32, 1]⟩
abbrev S65536x1 : Shape := ⟨2, ![65536, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S65536x1260, .f32⟩
  | .hbm, ⟨1, _⟩ => ⟨S65536x1260, .f32⟩
  | .hbm, ⟨2, _⟩ => ⟨S128x1260, .f32⟩
  | .hbm, ⟨3, _⟩ => ⟨S128, .f32⟩
  | .hbm, ⟨4, _⟩ => ⟨S32x256, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S1x32, .f32⟩
  | .hbm, ⟨9, _⟩ => ⟨S1, .f32⟩
  | .hbm, ⟨10, _⟩ => ⟨S1260x128, .f32⟩
  | .hbm, ⟨11, _⟩ => ⟨S65536x128, .f32⟩
  | .hbm, ⟨12, _⟩ => ⟨S1x128, .f32⟩
  | .hbm, ⟨13, _⟩ => ⟨S65536x128, .f32⟩
  | .hbm, ⟨14, _⟩ => ⟨S65536x128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S65536x128, .f32⟩
  | .hbm, ⟨19, _⟩ => ⟨S65536x128, .f32⟩
  | .hbm, ⟨20, _⟩ => ⟨S_, .f32⟩
  | .hbm, ⟨21, _⟩ => ⟨S65536x128, .f32⟩
  | .hbm, ⟨22, _⟩ => ⟨S65536x128, .f32⟩
  | .hbm, ⟨23, _⟩ => ⟨S1260x128, .f32⟩
  | .hbm, ⟨24, _⟩ => ⟨S65536x128, .f32⟩
  | .hbm, ⟨25, _⟩ => ⟨S1x128, .f32⟩
  | .hbm, ⟨26, _⟩ => ⟨S65536x128, .f32⟩
  | .hbm, ⟨27, _⟩ => ⟨S65536x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S65536x128, .f32⟩
  | .hbm, ⟨32, _⟩ => ⟨S65536x128, .f32⟩
  | .hbm, ⟨33, _⟩ => ⟨S_, .f32⟩
  | .hbm, ⟨34, _⟩ => ⟨S65536x128, .f32⟩
  | .hbm, ⟨35, _⟩ => ⟨S65536x128, .f32⟩
  | .hbm, ⟨36, _⟩ => ⟨S65536x256, .f32⟩
  | .hbm, ⟨37, _⟩ => ⟨S256x32, .f32⟩
  | .hbm, ⟨38, _⟩ => ⟨S65536x32, .f32⟩
  | .hbm, ⟨39, _⟩ => ⟨S1x32, .f32⟩
  | .hbm, ⟨40, _⟩ => ⟨S65536x32, .f32⟩
  | .hbm, ⟨41, _⟩ => ⟨S65536x32, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S65536x32, .f32⟩
  | .hbm, ⟨46, _⟩ => ⟨S65536x32, .f32⟩
  | .hbm, ⟨47, _⟩ => ⟨S_, .f32⟩
  | .hbm, ⟨48, _⟩ => ⟨S65536x32, .f32⟩
  | .hbm, ⟨49, _⟩ => ⟨S65536x32, .f32⟩
  | .hbm, ⟨50, _⟩ => ⟨S32x32, .f32⟩
  | .hbm, ⟨51, _⟩ => ⟨S65536x32, .f32⟩
  | .hbm, ⟨52, _⟩ => ⟨S1x32, .f32⟩
  | .hbm, ⟨53, _⟩ => ⟨S65536x32, .f32⟩
  | .hbm, ⟨54, _⟩ => ⟨S65536x32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S65536x32, .f32⟩
  | .hbm, ⟨59, _⟩ => ⟨S65536x32, .f32⟩
  | .hbm, ⟨60, _⟩ => ⟨S_, .f32⟩
  | .hbm, ⟨61, _⟩ => ⟨S65536x32, .f32⟩
  | .hbm, ⟨62, _⟩ => ⟨S65536x32, .f32⟩
  | .hbm, ⟨63, _⟩ => ⟨S32x1, .f32⟩
  | .hbm, ⟨64, _⟩ => ⟨S65536x1, .f32⟩
  | .hbm, ⟨65, _⟩ => ⟨S1x1, .f32⟩
  | .hbm, ⟨66, _⟩ => ⟨S65536x1, .f32⟩
  | .hbm, ⟨67, _⟩ => ⟨S65536x1, .f32⟩
  | .hbm, ⟨68, _⟩ => ⟨S65536x1, .f32⟩
  | .hbm, ⟨69, _⟩ => ⟨S65536x1, .f32⟩
  | .hbm, ⟨70, _⟩ => ⟨S_, .f32⟩
  | .hbm, ⟨71, _⟩ => ⟨S65536x1, .f32⟩
  | .hbm, ⟨72, _⟩ => ⟨S65536x1, .f32⟩
  | .hbm, ⟨73, _⟩ => ⟨S_, .f32⟩
  | .hbm, ⟨74, _⟩ => ⟨S65536x1, .f32⟩
  | .hbm, ⟨75, _⟩ => ⟨S65536x1, .f32⟩
  | _, _ => ⟨S65536x1260, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_cst_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_cst_4 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_5 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_cst_7 : Ref sig .tc := ⟨.hbm, 70, rfl⟩
abbrev main_v32 : Ref sig .tc := ⟨.hbm, 71, rfl⟩
abbrev main_v33 : Ref sig .tc := ⟨.hbm, 72, rfl⟩
abbrev main_cst_8 : Ref sig .tc := ⟨.hbm, 73, rfl⟩
abbrev main_v34 : Ref sig .tc := ⟨.hbm, 74, rfl⟩
abbrev main_v35 : Ref sig .tc := ⟨.hbm, 75, rfl⟩

abbrev nD : Nat := 1
abbrev τ : Topo := Topo.v7x

variable {F : FTy → Type} [FloatOps F]

class Facts₀ : Prop where
  transposes_S128x1260_S1260x128_1_0 : S128x1260.Transposes [1, 0] S1260x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  concatenates_S65536x128_S65536x128_S65536x256_d1 : Shape.Concatenates [S65536x128, S65536x128] S65536x256 1
  transposes_S32x256_S256x32_1_0 : S32x256.Transposes [1, 0] S256x32
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S_S65536x1 : S_.BroadcastsInDim S65536x1 (![] : Fin 0 → Fin S65536x1.rank)
  dot_S65536x1260_S1260x128_S65536x128_1_0_0_1_n_n_wf : DotDims.WF S65536x1260 S1260x128 S65536x128 [1] [0] [0] [1] [] []
  dot_S65536x256_S256x32_S65536x32_1_0_0_1_n_n_wf : DotDims.WF S65536x256 S256x32 S65536x32 [1] [0] [0] [1] [] []
  dot_S65536x32_S32x32_S65536x32_1_0_0_1_n_n_wf : DotDims.WF S65536x32 S32x32 S65536x32 [1] [0] [0] [1] [] []
  dot_S65536x32_S32x1_S65536x1_1_0_0_1_n_n_wf : DotDims.WF S65536x32 S32x1 S65536x1 [1] [0] [0] [1] [] []

variable [Facts₀]

def dot_S65536x1260_S1260x128_S65536x128_1_0_0_1_n_n : DotDims S65536x1260 S1260x128 S65536x128 where
  lhsContracting := [1]
  rhsContracting := [0]
  lhsNonContracting := [0]
  rhsNonContracting := [1]
  lhsBatch := []
  rhsBatch := []
  wf := dot_S65536x1260_S1260x128_S65536x128_1_0_0_1_n_n_wf
def dot_S65536x256_S256x32_S65536x32_1_0_0_1_n_n : DotDims S65536x256 S256x32 S65536x32 where
  lhsContracting := [1]
  rhsContracting := [0]
  lhsNonContracting := [0]
  rhsNonContracting := [1]
  lhsBatch := []
  rhsBatch := []
  wf := dot_S65536x256_S256x32_S65536x32_1_0_0_1_n_n_wf
def dot_S65536x32_S32x32_S65536x32_1_0_0_1_n_n : DotDims S65536x32 S32x32 S65536x32 where
  lhsContracting := [1]
  rhsContracting := [0]
  lhsNonContracting := [0]
  rhsNonContracting := [1]
  lhsBatch := []
  rhsBatch := []
  wf := dot_S65536x32_S32x32_S65536x32_1_0_0_1_n_n_wf
def dot_S65536x32_S32x1_S65536x1_1_0_0_1_n_n : DotDims S65536x32 S32x1 S65536x1 where
  lhsContracting := [1]
  rhsContracting := [0]
  lhsNonContracting := [0]
  rhsNonContracting := [1]
  lhsBatch := []
  rhsBatch := []
  wf := dot_S65536x32_S32x1_S65536x1_1_0_0_1_n_n_wf

class Facts : Prop extends Facts₀ where

variable [Facts]
-- ==== Proof.Net.lean ====
/-
  The evaluation network on one position.

  A position is two rows of 1260 features, one per side.  Each row goes through the same first layer
  (128 outputs), the two results are laid side by side (256 values), and three more layers follow
  (32, 32 and one output), the last through the logistic function.  Every layer is
  `x ↦ Σ k, x k · W j k + B j`; all but the last are followed by the clamp to the unit interval,
  `min 1 (max 0 ·)`.  Everything is over the extended reals, where the sum of a layer is a plain finite
  sum and its order does not matter.
-/
import Idealize.ShloMosaic.PureOps.Ideal
import Idealize.ShloMosaic.Lib.ValueIdx

noncomputable section

namespace Cert.Nnue

open Idealize.ShloMosaic Idealize.ShloMosaic.ValueIdx

/-- The clamp to the unit interval: `min 1 (max 0 x)`, the bounds the two float words of 0 and 1. -/
def clip (x : EReal) : EReal :=
  min (Ideal.ofBits .f32 0x3F800000#32) (max (Ideal.ofBits .f32 0x00000000#32) x)

/-- One layer: output `j` of the weights `W` (one row per output) and biases `B` applied to the row `x`,
    clamped. -/
def layer {n o : Nat} (W : Fin o → Fin n → EReal) (B : Fin o → EReal) (x : Fin n → EReal) (j : Fin o) : EReal :=
  clip ((∑ k : Fin n, x k * W j k) + B j)

/-- Two rows of 128 laid side by side. -/
def join (u v : Fin 128 → EReal) (l : Fin 256) : EReal :=
  if h : l.val < 128 then u ⟨l.val, h⟩ else v ⟨l.val - 128, by have := l.isLt; omega⟩

/-- The last layer: one output, through the logistic function. -/
def score (Wo : Fin 32 → EReal) (bo : EReal) (h : Fin 32 → EReal) : EReal :=
  Ideal.logistic ((∑ k : Fin 32, h k * Wo k) + bo)

/-- A layer depends on its input row only through its entries. -/
theorem layer_congr {n o : Nat} (W : Fin o → Fin n → EReal) (B : Fin o → EReal) {x y : Fin n → EReal}
    (h : ∀ k, x k = y k) (j : Fin o) : layer W B x j = layer W B y j := by
  rw [show x = y from funext h]

/-- The network's value at position `b` of a batch: the two feature arrays `a0`, `a1` read at row `b`,
    the weights and biases `a2` … `a9` read whole (each weight matrix has one row per output). -/
def net (a0 a1 : FVec Ideal ⟨2, ![65536, 1260]⟩ .f32) (a2 : FVec Ideal ⟨2, ![128, 1260]⟩ .f32)
    (a3 : FVec Ideal ⟨1, ![128]⟩ .f32) (a4 : FVec Ideal ⟨2, ![32, 256]⟩ .f32) (a5 : FVec Ideal ⟨1, ![32]⟩ .f32)
    (a6 : FVec Ideal ⟨2, ![32, 32]⟩ .f32) (a7 : FVec Ideal ⟨1, ![32]⟩ .f32) (a8 : FVec Ideal ⟨2, ![1, 32]⟩ .f32)
    (a9 : FVec Ideal ⟨1, ![1]⟩ .f32) (b : Fin 65536) : EReal :=
  score (fun k => a8 (ix2 (0 : Fin 1) k)) (a9 (ix1 (0 : Fin 1)))
    (layer (fun k j => a6 (ix2 k j)) (fun k => a7 (ix1 k))
      (layer (fun j l => a4 (ix2 j l)) (fun j => a5 (ix1 j))
        (join (layer (fun a f => a2 (ix2 a f)) (fun a => a3 (ix1 a)) (fun f => a0 (ix2 b f)))
          (layer (fun a f => a2 (ix2 a f)) (fun a => a3 (ix1 a)) (fun f => a1 (ix2 b f))))))

/-- The result array: one column, row `b` the network's value at position `b`. -/
def netArr (a0 a1 : FVec Ideal ⟨2, ![65536, 1260]⟩ .f32) (a2 : FVec Ideal ⟨2, ![128, 1260]⟩ .f32)
    (a3 : FVec Ideal ⟨1, ![128]⟩ .f32) (a4 : FVec Ideal ⟨2, ![32, 256]⟩ .f32) (a5 : FVec Ideal ⟨1, ![32]⟩ .f32)
    (a6 : FVec Ideal ⟨2, ![32, 32]⟩ .f32) (a7 : FVec Ideal ⟨1, ![32]⟩ .f32) (a8 : FVec Ideal ⟨2, ![1, 32]⟩ .f32)
    (a9 : FVec Ideal ⟨1, ![1]⟩ .f32) : FVec Ideal ⟨2, ![65536, 1]⟩ .f32 :=
  fun i => net a0 a1 a2 a3 a4 a5 a6 a7 a8 a9 ⟨(i 0).val, (i 0).isLt⟩

end Cert.Nnue

end
-- ==== Proof.RefNet.lean ====
/-
  The reference program computes the network.

  Stage by stage, each of the reference's host operations read at an index: a `dot_general` contracting the
  features with the transposed weights is the layer's sum, the bias vector broadcast along the rows is the bias
  at the output's column, the clamp is `min 1 (max 0 ·)`.
-/
import proofs.«180332_j6846177869883_2_alg».proof.Proof.Gen.ReferenceIdeal.Read
import proofs.«180332_j6846177869883_2_alg».proof.Proof.Net
import Idealize.ShloMosaic.Lib.IdealHost

noncomputable section

namespace Cert.Nnue.Ref

open Cert.ReferenceIdeal Cert.ReferenceIdeal.Read Idealize.ShloMosaic Idealize.ShloMosaic.ValueIdx Cert.Nnue

/-- The first layer on the first side's features, at row `b`, output `a`. -/
theorem feat0 (x0 : (⟨S65536x1260, .f32⟩ : BufTy).Contents (Elt Ideal)) (x2 : (⟨S128x1260, .f32⟩ : BufTy).Contents (Elt Ideal))
    (x3 : (⟨S128, .f32⟩ : BufTy).Contents (Elt Ideal)) (b : Fin 65536) (a : Fin 128) :
    val_main_v5 (F := Ideal) x0 x2 x3 (ix2 b a)
      = layer (fun a f => x2 (ix2 a f)) (fun a => x3 (ix1 a)) (fun f => x0 (ix2 b f)) a := by
  rw [val_main_v5_apply, val_main_call0_v4_apply, val_main_call0_v3_apply, val_main_cst_0_apply, val_main_call0_v2_apply,
    val_main_call0_v1_apply, val_main_call0_v0_apply, val_main_cst_apply, val_main_v4_apply, val_main_v1_apply,
    val_main_v3_apply, val_main_v2_apply]
  have el : ∀ k : Fin 1260, lidx_main_v1 (ix2 b a) k = ix2 b k := fun k =>
    funext fun d => Fin.ext (by match d with | ⟨0, _⟩ => rfl | ⟨1, _⟩ => rfl)
  have er : ∀ k : Fin 1260, idx_main_v0 (ridx_main_v1 (ix2 b a) k) = ix2 a k := fun k =>
    funext fun d => Fin.ext (by match d with | ⟨0, _⟩ => rfl | ⟨1, _⟩ => rfl)
  have eb : idx_main_v2 (idx_main_v3 (ix2 b a)) = ix1 a :=
    funext fun d => Fin.ext (by match d with | ⟨0, _⟩ => rfl)
  simp only [val_main_v0_apply, el, er, eb]
  rfl

/-- The first layer on the second side's features, at row `b`, output `a`. -/
theorem feat1 (x1 : (⟨S65536x1260, .f32⟩ : BufTy).Contents (Elt Ideal)) (x2 : (⟨S128x1260, .f32⟩ : BufTy).Contents (Elt Ideal))
    (x3 : (⟨S128, .f32⟩ : BufTy).Contents (Elt Ideal)) (b : Fin 65536) (a : Fin 128) :
    val_main_v11 (F := Ideal) x1 x2 x3 (ix2 b a)
      = layer (fun a f => x2 (ix2 a f)) (fun a => x3 (ix1 a)) (fun f => x1 (ix2 b f)) a := by
  rw [val_main_v11_apply, val_main_call1_v4_apply, val_main_call1_v3_apply, val_main_cst_2_apply, val_main_call1_v2_apply,
    val_main_call1_v1_apply, val_main_call1_v0_apply, val_main_cst_1_apply, val_main_v10_apply, val_main_v7_apply,
    val_main_v9_apply, val_main_v8_apply]
  have el : ∀ k : Fin 1260, lidx_main_v7 (ix2 b a) k = ix2 b k := fun k =>
    funext fun d => Fin.ext (by match d with | ⟨0, _⟩ => rfl | ⟨1, _⟩ => rfl)
  have er : ∀ k : Fin 1260, idx_main_v6 (ridx_main_v7 (ix2 b a) k) = ix2 a k := fun k =>
    funext fun d => Fin.ext (by match d with | ⟨0, _⟩ => rfl | ⟨1, _⟩ => rfl)
  have eb : idx_main_v8 (idx_main_v9 (ix2 b a)) = ix1 a :=
    funext fun d => Fin.ext (by match d with | ⟨0, _⟩ => rfl)
  simp only [val_main_v6_apply, el, er, eb]
  rfl

/-- The two first-layer results side by side: column `l` of row `b` is the first side's output `l` below 128,
    the second side's output `l - 128` from there on. -/
theorem joined (x0 x1 : (⟨S65536x1260, .f32⟩ : BufTy).Contents (Elt Ideal)) (x2 : (⟨S128x1260, .f32⟩ : BufTy).Contents (Elt Ideal))
    (x3 : (⟨S128, .f32⟩ : BufTy).Contents (Elt Ideal)) (b : Fin 65536) (l : Fin 256) :
    val_main_v12 (F := Ideal) x0 x1 x2 x3 (ix2 b l)
      = join (layer (fun a f => x2 (ix2 a f)) (fun a => x3 (ix1 a)) (fun f => x0 (ix2 b f)))
          (layer (fun a f => x2 (ix2 a f)) (fun a => x3 (ix1 a)) (fun f => x1 (ix2 b f))) l := by
  unfold val_main_v12 join
  by_cases h : l.val < 128
  · rw [dif_pos h]
    refine (concatenate_pair_apply_left (t := S65536x256) (s₁ := S65536x128) (s₂ := S65536x128) _ _ _ _ (ix2 b l) rfl
      (ix2 b (⟨l.val, h⟩ : Fin 128)) ?_).trans (feat0 x0 x2 x3 b ⟨l.val, h⟩)
    intro d
    match d with
    | ⟨0, _⟩ => rfl
    | ⟨1, _⟩ => rfl
  · rw [dif_neg h]
    have hl := l.isLt
    refine (concatenate_pair_apply_right (t := S65536x256) (s₁ := S65536x128) (s₂ := S65536x128) _ _ _ _ (ix2 b l) rfl rfl
      (ix2 b (⟨l.val - 128, by omega⟩ : Fin 128)) ?_ ?_).trans (feat1 x1 x2 x3 b ⟨l.val - 128, by omega⟩)
    · intro d hd
      match d with
      | ⟨0, _⟩ => rfl
      | ⟨1, _⟩ => exact absurd rfl hd
    · show l.val - 128 + 128 = l.val
      omega

/-- The second layer, at row `b`, output `j`. -/
theorem hid1 (x0 x1 : (⟨S65536x1260, .f32⟩ : BufTy).Contents (Elt Ideal)) (x2 : (⟨S128x1260, .f32⟩ : BufTy).Contents (Elt Ideal)) (x3 : (⟨S128, .f32⟩ : BufTy).Contents (Elt Ideal))
    (x4 : (⟨S32x256, .f32⟩ : BufTy).Contents (Elt Ideal)) (x5 : (⟨S32, .f32⟩ : BufTy).Contents (Elt Ideal)) (b : Fin 65536) (j : Fin 32) :
    val_main_v18 (F := Ideal) x0 x1 x2 x3 x4 x5 (ix2 b j)
      = layer (fun j l => x4 (ix2 j l)) (fun j => x5 (ix1 j))
          (join (layer (fun a f => x2 (ix2 a f)) (fun a => x3 (ix1 a)) (fun f => x0 (ix2 b f)))
            (layer (fun a f => x2 (ix2 a f)) (fun a => x3 (ix1 a)) (fun f => x1 (ix2 b f)))) j := by
  rw [val_main_v18_apply, val_main_call2_v4_apply, val_main_call2_v3_apply, val_main_cst_4_apply, val_main_call2_v2_apply,
    val_main_call2_v1_apply, val_main_call2_v0_apply, val_main_cst_3_apply, val_main_v17_apply, val_main_v14_apply,
    val_main_v16_apply, val_main_v15_apply]
  have el : ∀ k : Fin 256, lidx_main_v14 (ix2 b j) k = ix2 b k := fun k =>
    funext fun d => Fin.ext (by match d with | ⟨0, _⟩ => rfl | ⟨1, _⟩ => rfl)
  have er : ∀ k : Fin 256, idx_main_v13 (ridx_main_v14 (ix2 b j) k) = ix2 j k := fun k =>
    funext fun d => Fin.ext (by match d with | ⟨0, _⟩ => rfl | ⟨1, _⟩ => rfl)
  have eb : idx_main_v15 (idx_main_v16 (ix2 b j)) = ix1 j :=
    funext fun d => Fin.ext (by match d with | ⟨0, _⟩ => rfl)
  simp only [val_main_v13_apply, el, er, eb, joined]
  rfl

/-- The third layer, at row `b`, output `k`. -/
theorem hid2 (x0 x1 : (⟨S65536x1260, .f32⟩ : BufTy).Contents (Elt Ideal)) (x2 : (⟨S128x1260, .f32⟩ : BufTy).Contents (Elt Ideal)) (x3 : (⟨S128, .f32⟩ : BufTy).Contents (Elt Ideal))
    (x4 : (⟨S32x256, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal)) (b : Fin 65536) (k : Fin 32) :
    val_main_v24 (F := Ideal) x0 x1 x2 x3 x4 x5 x6 x7 (ix2 b k)
      = layer (fun k j => x6 (ix2 k j)) (fun k => x7 (ix1 k))
          (layer (fun j l => x4 (ix2 j l)) (fun j => x5 (ix1 j))
            (join (layer (fun a f => x2 (ix2 a f)) (fun a => x3 (ix1 a)) (fun f => x0 (ix2 b f)))
              (layer (fun a f => x2 (ix2 a f)) (fun a => x3 (ix1 a)) (fun f => x1 (ix2 b f))))) k := by
  rw [val_main_v24_apply, val_main_call3_v4_apply, val_main_call3_v3_apply, val_main_cst_6_apply, val_main_call3_v2_apply,
    val_main_call3_v1_apply, val_main_call3_v0_apply, val_main_cst_5_apply, val_main_v23_apply, val_main_v20_apply,
    val_main_v22_apply, val_main_v21_apply]
  have el : ∀ j : Fin 32, lidx_main_v20 (ix2 b k) j = ix2 b j := fun j =>
    funext fun d => Fin.ext (by match d with | ⟨0, _⟩ => rfl | ⟨1, _⟩ => rfl)
  have er : ∀ j : Fin 32, idx_main_v19 (ridx_main_v20 (ix2 b k) j) = ix2 k j := fun j =>
    funext fun d => Fin.ext (by match d with | ⟨0, _⟩ => rfl | ⟨1, _⟩ => rfl)
  have eb : idx_main_v21 (idx_main_v22 (ix2 b k)) = ix1 k :=
    funext fun d => Fin.ext (by match d with | ⟨0, _⟩ => rfl)
  simp only [val_main_v19_apply, el, er, eb, hid1]
  rfl

/-- The result at row `b`: the last layer's one output through `1 / (1 + exp (-·))`, which is the logistic
    function. -/
theorem out (x0 x1 : (⟨S65536x1260, .f32⟩ : BufTy).Contents (Elt Ideal)) (x2 : (⟨S128x1260, .f32⟩ : BufTy).Contents (Elt Ideal)) (x3 : (⟨S128, .f32⟩ : BufTy).Contents (Elt Ideal))
    (x4 : (⟨S32x256, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (x8 : (⟨S1x32, .f32⟩ : BufTy).Contents (Elt Ideal)) (x9 : (⟨S1, .f32⟩ : BufTy).Contents (Elt Ideal)) (b : Fin 65536) :
    val_main_v35 (F := Ideal) x0 x1 x2 x3 x4 x5 x6 x7 x8 x9 (ix2 b (0 : Fin 1))
      = net x0 x1 x2 x3 x4 x5 x6 x7 x8 x9 b := by
  rw [val_main_v35_apply, val_main_v34_apply, val_main_cst_8_apply, val_main_v33_apply, val_main_v32_apply,
    val_main_cst_7_apply, val_main_v31_apply, val_main_v30_apply, val_main_v29_apply, val_main_v26_apply,
    val_main_v28_apply, val_main_v27_apply]
  have el : ∀ k : Fin 32, lidx_main_v26 (ix2 b (0 : Fin 1)) k = ix2 b k := fun k =>
    funext fun d => Fin.ext (by match d with | ⟨0, _⟩ => rfl | ⟨1, _⟩ => rfl)
  have er : ∀ k : Fin 32, idx_main_v25 (ridx_main_v26 (ix2 b (0 : Fin 1)) k) = ix2 (0 : Fin 1) k := fun k =>
    funext fun d => Fin.ext (by match d with | ⟨0, _⟩ => rfl | ⟨1, _⟩ => rfl)
  have eb : idx_main_v27 (idx_main_v28 (ix2 b (0 : Fin 1))) = ix1 (0 : Fin 1) :=
    funext fun d => Fin.ext (by match d with | ⟨0, _⟩ => rfl)
  simp only [val_main_v25_apply, el, er, eb, hid2]
  show Ideal.div (Ideal.ofBits .f32 0x3F800000#32) (Ideal.ofBits .f32 0x3F800000#32 + Ideal.exp (-_)) = Ideal.logistic _
  rw [Ideal.ofBits_one_f32]
  rfl

/-- The reference's result array is the network's, row by row. -/
theorem result_eq (x0 x1 : (⟨S65536x1260, .f32⟩ : BufTy).Contents (Elt Ideal)) (x2 : (⟨S128x1260, .f32⟩ : BufTy).Contents (Elt Ideal)) (x3 : (⟨S128, .f32⟩ : BufTy).Contents (Elt Ideal))
    (x4 : (⟨S32x256, .f32⟩ : BufTy).Contents (Elt Ideal)) (x5 : (⟨S32, .f32⟩ : BufTy).Contents (Elt Ideal)) (x6 : (⟨S32x32, .f32⟩ : BufTy).Contents (Elt Ideal)) (x7 : (⟨S32, .f32⟩ : BufTy).Contents (Elt Ideal))
    (x8 : (⟨S1x32, .f32⟩ : BufTy).Contents (Elt Ideal)) (x9 : (⟨S1, .f32⟩ : BufTy).Contents (Elt Ideal)) :
    val_main_v35 (F := Ideal) x0 x1 x2 x3 x4 x5 x6 x7 x8 x9 = netArr x0 x1 x2 x3 x4 x5 x6 x7 x8 x9 := by
  funext i
  obtain ⟨b, z, rfl⟩ : ∃ (b : Fin 65536) (z : Fin 1), i = ix2 b z := ⟨i 0, i 1, eq_ix2 i⟩
  obtain rfl : z = 0 := Subsingleton.elim _ _
  exact out x0 x1 x2 x3 x4 x5 x6 x7 x8 x9 b

end Cert.Nnue.Ref

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«180332_j6846177869883_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.Pay.lean ====
/-
  The kernel's body computes the network on a block of 1024 positions.

  The body's arithmetic is two pure terms.  The first takes the two feature blocks through the first layer
  (the weights arrive transposed, `[1260, 128]`, so entry `(f, a)` is weight `a` of feature `f`), lays the two
  results side by side and applies the second layer.  The second applies the third and the last layer and the
  logistic function to a `[1024, 1]` column, and re-lays that column as `[8, 128]`: entry `(r, l)` of the block
  stored is position `128 r + l` of the column.
-/
import proofs.«180332_j6846177869883_2_alg».proof.Proof.Gen.KernelIdeal.Skeleton
import proofs.«180332_j6846177869883_2_alg».proof.Proof.LibDenseLayer
import proofs.«180332_j6846177869883_2_alg».proof.Proof.Net
import Idealize.ShloMosaic.Lib.Pipeline.Value

noncomputable section

namespace Cert.Nnue.Kern

open Cert.KernelIdeal Cert.KernelIdeal.Gen Idealize.ShloMosaic Idealize.ShloMosaic.ValueIdx Cert.Nnue

/-- A clamped sum plus bias is a layer's output, once the sum and the bias are the layer's. -/
theorem layer_of {n o : Nat} (W : Fin o → Fin n → EReal) (B : Fin o → EReal) (x : Fin n → EReal) (j : Fin o)
    (s bj : EReal) (hs : s = ∑ k : Fin n, x k * W j k) (hb : bj = B j) :
    min (Ideal.ofBits .f32 0x3F800000#32) (max (Ideal.ofBits .f32 0x00000000#32) (s + bj)) = layer W B x j := by
  subst hs hb; rfl

/-- The first layer on a block of features `x`, weights `w` (transposed) and bias row `bias`: entry `(p, a)`. -/
theorem feat_apply (w : FVec Ideal S1260x128 .bf16) (bias : FVec Ideal S1x128 .f32) (x : FVec Ideal S1024x1260 .f32)
    (h1 : FTy.bf16.bits < FTy.f32.bits) (h2 : S1260x128.ShapeCasts S1260x128) (h3 : S1x128.ShapeCasts S1x128)
    (h4 : S1x128.Broadcasts S1024x128) (p : Fin 1024) (a : Fin 128) :
    minimumf (broadcast S1024x128 (Scalar.ofBits (F := Ideal) .f32 0x3F800000#32))
        (maximumf (broadcast S1024x128 (Scalar.ofBits (F := Ideal) .f32 0x00000000#32))
          (addf (matmul dot_S1024x1260_S1260x128_S1024x128_1_0_0_1_n_n none (truncf .bf16 x h1)
              (shapeCast S1260x128 w h2) (constant S1024x128 .f32 0x00000000#32))
            (broadcastTo S1024x128 (shapeCast S1x128 bias h3) h4))) (ix2 p a)
      = layer (fun a f => w (ix2 f a)) (fun a => bias (ix2 (0 : Fin 1) a)) (fun f => x (ix2 p f)) a := by
  rw [shapeCast_self, shapeCast_self]
  exact DenseLayer.affine_clamped_apply dot_S1024x1260_S1260x128_S1024x128_1_0_0_1_n_n.wf (truncf .bf16 x h1) w bias h4 _ _ p a

/-- Two blocks of 128 columns laid side by side, read at `(p, l)`. -/
theorem cat_apply (u v : FVec Ideal S1024x128 .f32) (hc : Shape.Concatenates [S1024x128, S1024x128] S1024x256 1)
    (U V : Fin 128 → EReal) (p : Fin 1024) (hu : ∀ a, u (ix2 p a) = U a) (hv : ∀ a, v (ix2 p a) = V a) (l : Fin 256) :
    concatenate S1024x256 1 [⟨S1024x128, u⟩, ⟨S1024x128, v⟩] hc (ix2 p l) = join U V l := by
  unfold join
  by_cases h : l.val < 128
  · rw [dif_pos h]
    refine (concatenate_pair_apply_left (t := S1024x256) (s₁ := S1024x128) (s₂ := S1024x128) _ _ _ _ (ix2 p l) rfl
      (ix2 p (⟨l.val, h⟩ : Fin 128)) ?_).trans (hu _)
    intro d
    match d with
    | ⟨0, _⟩ => rfl
    | ⟨1, _⟩ => rfl
  · rw [dif_neg h]
    have hl := l.isLt
    refine (concatenate_pair_apply_right (t := S1024x256) (s₁ := S1024x128) (s₂ := S1024x128) _ _ _ _ (ix2 p l) rfl rfl
      (ix2 p (⟨l.val - 128, by omega⟩ : Fin 128)) ?_ ?_).trans (hv _)
    · intro d hd
      match d with
      | ⟨0, _⟩ => rfl
      | ⟨1, _⟩ => exact absurd rfl hd
    · show l.val - 128 + 128 = l.val
      omega

/-- The body's first term at `(p, j)`: the second layer's output `j` at position `p` of the block. -/
theorem pay2_apply (v0 : Vec Ideal S1260x128 .bf16) (v2 : Vec Ideal S1x128 .f32) (v4 v6 : Vec Ideal S1024x1260 .f32)
    (v23 : Vec Ideal S256x32 .bf16) (v25 : Vec Ideal S1x32 .f32) (p : Fin 1024) (j : Fin 32) :
    k0_pay2 (F := Ideal) v0 v2 v4 v6 v23 v25 (ix2 p j)
      = layer (fun j l => v23 (ix2 l j)) (fun j => v25 (ix2 (0 : Fin 1) j))
          (join (layer (fun a f => v0 (ix2 f a)) (fun a => v2 (ix2 (0 : Fin 1) a)) (fun f => v4 (ix2 p f)))
            (layer (fun a f => v0 (ix2 f a)) (fun a => v2 (ix2 (0 : Fin 1) a)) (fun f => v6 (ix2 p f)))) j := by
  unfold k0_pay2
  refine (DenseLayer.affine_clamped_apply (K := 1024) (N := 256) (Q := 32)
    dot_S1024x256_S256x32_S1024x32_1_0_0_1_n_n.wf _ _ _ _ _ _ p j).trans ?_
  refine layer_of _ _ _ j _ _ (Finset.sum_congr rfl fun n _ => ?_) ?_
  · refine congrArg₂ (· * ·) ?_ (congrFun (shapeCast_self _ _) _)
    refine (truncf_apply (φ := .f32) (ψ := .bf16) _ _ (ix2 p n)).trans ?_
    exact cat_apply _ _ _ _ _ p (fun a => feat_apply _ _ _ _ _ _ _ p a) (fun a => feat_apply _ _ _ _ _ _ _ p a) n
  · exact congrFun (shapeCast_self _ _) _

/-- A sum plus bias through the logistic function is the last layer's output, once the sum and the bias are its. -/
theorem score_of (Wo : Fin 32 → EReal) (bo : EReal) (h : Fin 32 → EReal) (s b : EReal)
    (hs : s = ∑ k : Fin 32, h k * Wo k) (hb : b = bo) : Ideal.logistic (s + b) = score Wo bo h := by
  subst hs hb; rfl

/-- The body's second term at `(r, l)` of the block stored: the network's last two layers at position
    `128 r + l` of the block, from the second layer's outputs `v34` there. -/
theorem pay1_apply (v34 : FVec Ideal S1024x32 .f32) (v35 : Vec Ideal S32x32 .bf16) (v37 : Vec Ideal S1x32 .f32)
    (v47 : Vec Ideal S32x1 .bf16) (v49 : Vec Ideal S1x1 .f32) (r : Fin 8) (l : Fin 128) :
    k0_pay1 (F := Ideal) v34 v35 v37 v47 v49 (ix2 r l)
      = score (fun k => v47 (ix2 k (0 : Fin 1))) (v49 (ix2 (0 : Fin 1) (0 : Fin 1)))
          (layer (fun k j => v35 (ix2 j k)) (fun k => v37 (ix2 (0 : Fin 1) k))
            (fun j => v34 (ix2 (⟨r.val * 128 + l.val, by have := r.isLt; have := l.isLt; omega⟩ : Fin 1024) j))) := by
  unfold k0_pay1
  refine (shapeCast_apply _ _ (ix2 r l)
    (ix2 (⟨r.val * 128 + l.val, by have := r.isLt; have := l.isLt; omega⟩ : Fin 1024) (0 : Fin 1)) ?_).trans ?_
  · rw [Shape.rowMajor_val_two, Shape.rowMajor_val_two]
    show (r.val * 128 + l.val) * 1 + 0 = r.val * 128 + l.val
    omega
  refine (congrArg Ideal.logistic (DenseLayer.affine_apply (K := 1024) (N := 32) (Q := 1)
    dot_S1024x32_S32x1_S1024x1_1_0_0_1_n_n.wf _ _ _ _ _ (0 : Fin 1))).trans ?_
  refine score_of _ _ _ _ _ (Finset.sum_congr rfl fun k _ => ?_) ?_
  · refine congrArg₂ (· * ·) ?_ (congrFun (shapeCast_self _ _) _)
    refine (truncf_apply (φ := .f32) (ψ := .bf16) _ _ _).trans ?_
    refine (DenseLayer.affine_clamped_apply (K := 1024) (N := 32) (Q := 32)
      dot_S1024x32_S32x32_S1024x32_1_0_0_1_n_n.wf _ _ _ _ _ _ _ k).trans ?_
    refine layer_of _ _ _ k _ _ (Finset.sum_congr rfl fun j _ => ?_) ?_
    · exact congrArg₂ (· * ·) (truncf_apply (φ := .f32) (ψ := .bf16) _ _ _) (congrFun (shapeCast_self _ _) _)
    · exact congrFun (shapeCast_self _ _) _
  · exact congrFun (shapeCast_self _ _) _

end Cert.Nnue.Kern

end
-- ==== Proof.Blocks.lean ====
/-
  From blocks to the array.

  The grid has 64 points.  At point `t` the kernel's body sees rows `1024 t … 1024 t + 1023` of the two feature
  arrays and the whole of every weight and bias array — the weights transposed and the biases as one-row matrices,
  as the host operations before the region leave them — and stores an `[8, 128]` block that is written back as
  rows `8 t … 8 t + 7` of a `[512, 128]` array.  Entry `(r, l)` of that block is the network's value at position
  `128 r + l` of the point's rows, so entry `(R, l)` of the array is the value at position `128 R + l` of the
  batch; the 64 blocks tile the array.
-/
import proofs.«180332_j6846177869883_2_alg».proof.Proof.Gen.KernelIdeal.Frame
import proofs.«180332_j6846177869883_2_alg».proof.Proof.Pay
import proofs.«180332_j6846177869883_2_alg».proof.Proof.Net
import Idealize.ShloMosaic.Lib.StableHlo.Run
import Idealize.ShloMosaic.Lib.ValueLayout
import Idealize.ShloMosaic.Lib.Pipeline.Value

noncomputable section

namespace Cert.Nnue.Blocks

open Cert.KernelIdeal Cert.KernelIdeal.Gen Idealize.ShloMosaic Idealize.ShloMosaic.TcCoe Idealize.ShloMosaic.ValueIdx
open Idealize.SL.Sem Idealize.ShloMosaic.StableHlo Idealize.ShloMosaic.Pipeline Cert.Nnue

variable (m : (ℓ : Loc nD τ sig) → Buf (Elt Ideal) ℓ)

theorem hz : (![0, 0] : Fin 2 → Nat) = fun _ => 0 := funext fun a => by fin_cases a <;> rfl

/-! ## The index maps, over the grid -/

/-- The two feature windows and the output window move with the point along the rows; every weight and bias
    window stays at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = t.val ∧ win0_10.index t (1 : Fin 2) = 0 :=
  (by decide +kernel : ∀ t : Fin grid0.N, _)

/-- Position `p` of point `t`'s rows is position `1024 t + p` of the batch. -/
def pos (t : Fin cfg0.N) (p : Fin 1024) : Fin 65536 :=
  ⟨t.val * 1024 + p.val, by have h := t.isLt; have hN : cfg0.N = 64 := N_0; have := p.isLt; omega⟩

/-! ## The arrays as the region finds them -/

/-- The first layer's weights, transposed: entry `(f, a)` is weight `a` of feature `f`. -/
theorem V_v1 (c : Dev nD) (f : Fin 1260) (a : Fin 128) : V m c main_v1 (ix2 f a) = (m ((c : Thread nD τ).loc main_arg2)) (ix2 a f) := by
  have e : (V m c main_v1 : S1260x128.Idx → EReal) = truncf (F := Ideal) .bf16
      (transpose S1260x128 [1, 0] (m ((c : Thread nD τ).loc main_arg2)) transposes_S128x1260_S1260x128_1_0) bitsLt_bf16_f32 := by
    show StableHlo.after hostOps0 (fun b => m (c, b)) (Proc.devRef .tc main_v1) = _
    after_results
  rw [e]
  exact transpose_ix2_apply _ _ f a

/-- The second layer's weights, transposed. -/
theorem V_v3 (c : Dev nD) (l : Fin 256) (j : Fin 32) : V m c main_v3 (ix2 l j) = (m ((c : Thread nD τ).loc main_arg4)) (ix2 j l) := by
  have e : (V m c main_v3 : S256x32.Idx → EReal) = truncf (F := Ideal) .bf16
      (transpose S256x32 [1, 0] (m ((c : Thread nD τ).loc main_arg4)) transposes_S32x256_S256x32_1_0) bitsLt_bf16_f32 := by
    show StableHlo.after hostOps0 (fun b => m (c, b)) (Proc.devRef .tc main_v3) = _
    after_results
  rw [e]
  exact transpose_ix2_apply _ _ l j

/-- The third layer's weights, transposed. -/
theorem V_v5 (c : Dev nD) (j : Fin 32) (k : Fin 32) : V m c main_v5 (ix2 j k) = (m ((c : Thread nD τ).loc main_arg6)) (ix2 k j) := by
  have e : (V m c main_v5 : S32x32.Idx → EReal) = truncf (F := Ideal) .bf16
      (transpose S32x32 [1, 0] (m ((c : Thread nD τ).loc main_arg6)) transposes_S32x32_S32x32_1_0) bitsLt_bf16_f32 := by
    show StableHlo.after hostOps0 (fun b => m (c, b)) (Proc.devRef .tc main_v5) = _
    after_results
  rw [e]
  exact transpose_ix2_apply _ _ j k

/-- The last layer's weights, transposed into a column. -/
theorem V_v7 (c : Dev nD) (k : Fin 32) (z : Fin 1) : V m c main_v7 (ix2 k z) = (m ((c : Thread nD τ).loc main_arg8)) (ix2 z k) := by
  have e : (V m c main_v7 : S32x1.Idx → EReal) = truncf (F := Ideal) .bf16
      (transpose S32x1 [1, 0] (m ((c : Thread nD τ).loc main_arg8)) transposes_S1x32_S32x1_1_0) bitsLt_bf16_f32 := by
    show StableHlo.after hostOps0 (fun b => m (c, b)) (Proc.devRef .tc main_v7) = _
    after_results
  rw [e]
  exact transpose_ix2_apply _ _ k z

/-- The first layer's biases as a one-row matrix. -/
theorem V_v8 (c : Dev nD) (a : Fin 128) : V m c main_v8 (ix2 (0 : Fin 1) a) = (m ((c : Thread nD τ).loc main_arg3)) (ix1 a) := by
  have e : (V m c main_v8 : S1x128.Idx → EReal) = shapeCast S1x128 (m ((c : Thread nD τ).loc main_arg3)) shapeCasts_S128_S1x128 := by
    show StableHlo.after hostOps0 (fun b => m (c, b)) (Proc.devRef .tc main_v8) = _
    after_results
    rfl
  rw [e]
  exact shapeCast_a_1a_apply _ _ 0 a

/-- The second layer's biases as a one-row matrix. -/
theorem V_v9 (c : Dev nD) (j : Fin 32) : V m c main_v9 (ix2 (0 : Fin 1) j) = (m ((c : Thread nD τ).loc main_arg5)) (ix1 j) := by
  have e : (V m c main_v9 : S1x32.Idx → EReal) = shapeCast S1x32 (m ((c : Thread nD τ).loc main_arg5)) shapeCasts_S32_S1x32 := by
    show StableHlo.after hostOps0 (fun b => m (c, b)) (Proc.devRef .tc main_v9) = _
    after_results
    rfl
  rw [e]
  exact shapeCast_a_1a_apply _ _ 0 j

/-- The third layer's biases as a one-row matrix. -/
theorem V_v10 (c : Dev nD) (k : Fin 32) : V m c main_v10 (ix2 (0 : Fin 1) k) = (m ((c : Thread nD τ).loc main_arg7)) (ix1 k) := by
  have e : (V m c main_v10 : S1x32.Idx → EReal) = shapeCast S1x32 (m ((c : Thread nD τ).loc main_arg7)) shapeCasts_S32_S1x32 := by
    show StableHlo.after hostOps0 (fun b => m (c, b)) (Proc.devRef .tc main_v10) = _
    after_results
    rfl
  rw [e]
  exact shapeCast_a_1a_apply _ _ 0 k

/-- The last layer's bias as a one-entry matrix. -/
theorem V_v11 (c : Dev nD) : V m c main_v11 (ix2 (0 : Fin 1) (0 : Fin 1)) = (m ((c : Thread nD τ).loc main_arg9)) (ix1 (0 : Fin 1)) := by
  have e : (V m c main_v11 : S1x1.Idx → EReal) = shapeCast S1x1 (m ((c : Thread nD τ).loc main_arg9)) shapeCasts_S1_S1x1 := by
    show StableHlo.after hostOps0 (fun b => m (c, b)) (Proc.devRef .tc main_v11) = _
    after_results
    rfl
  rw [e]
  exact shapeCast_a_1a_apply _ _ 0 0

/-! ## Each window's block at a point, read at an index -/

/-- The first side's features at point `t`: rows `1024 t …` of the array. -/
theorem blk0 (c : Dev nD) (t : Fin cfg0.N) (p : Fin 1024) (f : Fin 1260) :
    iblk m c 0 t (ix2 p f) = (m ((c : Thread nD τ).loc main_arg0)) (ix2 (pos t p) f) := by
  obtain ⟨e0, e1, -⟩ := idx_facts t
  show V m c main_arg0 (((cfg0.win 0).blk t).view.emb (ix2 p f)) = _
  rw [V_main_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 1260 + 1 * f.val = f.val; omega

/-- The second side's features at point `t`. -/
theorem blk1 (c : Dev nD) (t : Fin cfg0.N) (p : Fin 1024) (f : Fin 1260) :
    iblk m c 1 t (ix2 p f) = (m ((c : Thread nD τ).loc main_arg1)) (ix2 (pos t p) f) := by
  obtain ⟨-, -, e0, e1, -⟩ := idx_facts t
  show V m c main_arg1 (((cfg0.win 1).blk t).view.emb (ix2 p f)) = _
  rw [V_main_arg1]
  refine congrArg _ (funext fun a => Fin.ext ?_)
  match a with
  | ⟨0, _⟩ => show win0_1.index t (0 : Fin 2) * 1024 + 1 * p.val = t.val * 1024 + p.val; omega
  | ⟨1, _⟩ => show win0_1.index t (1 : Fin 2) * 1260 + 1 * f.val = f.val; omega

/-- The first layer's weights: the whole transposed array at every point. -/
theorem blk2 (c : Dev nD) (t : Fin cfg0.N) (f : Fin 1260) (a : Fin 128) :
    iblk m c 2 t (ix2 f a) = (m ((c : Thread nD τ).loc main_arg2)) (ix2 a f) := by
  obtain ⟨-, -, -, -, e0, e1, -⟩ := idx_facts t
  show V m c main_v1 (((cfg0.win 2).blk t).view.emb (ix2 f a)) = _
  have he : ((cfg0.win 2).blk t).view.emb (ix2 f a) = ix2 f a := funext fun d => Fin.ext (by
    match d with
    | ⟨0, _⟩ => show win0_2.index t (0 : Fin 2) * 1260 + 1 * f.val = f.val; omega
    | ⟨1, _⟩ => show win0_2.index t (1 : Fin 2) * 128 + 1 * a.val = a.val; omega)
  rw [he]
  exact V_v1 m c f a

/-- The first layer's biases. -/
theorem blk3 (c : Dev nD) (t : Fin cfg0.N) (a : Fin 128) :
    iblk m c 3 t (ix2 (0 : Fin 1) a) = (m ((c : Thread nD τ).loc main_arg3)) (ix1 a) := by
  obtain ⟨-, -, -, -, -, -, e0, e1, -⟩ := idx_facts t
  show V m c main_v8 (((cfg0.win 3).blk t).view.emb (ix2 (0 : Fin 1) a)) = _
  have he : ((cfg0.win 3).blk t).view.emb (ix2 (0 : Fin 1) a) = ix2 (0 : Fin 1) a := funext fun d => Fin.ext (by
    match d with
    | ⟨0, _⟩ => show win0_3.index t (0 : Fin 2) * 1 + 1 * 0 = 0; omega
    | ⟨1, _⟩ => show win0_3.index t (1 : Fin 2) * 128 + 1 * a.val = a.val; omega)
  rw [he]
  exact V_v8 m c a

/-- The second layer's weights. -/
theorem blk4 (c : Dev nD) (t : Fin cfg0.N) (l : Fin 256) (j : Fin 32) :
    iblk m c 4 t (ix2 l j) = (m ((c : Thread nD τ).loc main_arg4)) (ix2 j l) := by
  obtain ⟨-, -, -, -, -, -, -, -, e0, e1, -⟩ := idx_facts t
  show V m c main_v3 (((cfg0.win 4).blk t).view.emb (ix2 l j)) = _
  have he : ((cfg0.win 4).blk t).view.emb (ix2 l j) = ix2 l j := funext fun d => Fin.ext (by
    match d with
    | ⟨0, _⟩ => show win0_4.index t (0 : Fin 2) * 256 + 1 * l.val = l.val; omega
    | ⟨1, _⟩ => show win0_4.index t (1 : Fin 2) * 32 + 1 * j.val = j.val; omega)
  rw [he]
  exact V_v3 m c l j

/-- The second layer's biases. -/
theorem blk5 (c : Dev nD) (t : Fin cfg0.N) (j : Fin 32) :
    iblk m c 5 t (ix2 (0 : Fin 1) j) = (m ((c : Thread nD τ).loc main_arg5)) (ix1 j) := by
  obtain ⟨-, -, -, -, -, -, -, -, -, -, e0, e1, -⟩ := idx_facts t
  show V m c main_v9 (((cfg0.win 5).blk t).view.emb (ix2 (0 : Fin 1) j)) = _
  have he : ((cfg0.win 5).blk t).view.emb (ix2 (0 : Fin 1) j) = ix2 (0 : Fin 1) j := funext fun d => Fin.ext (by
    match d with
    | ⟨0, _⟩ => show win0_5.index t (0 : Fin 2) * 1 + 1 * 0 = 0; omega
    | ⟨1, _⟩ => show win0_5.index t (1 : Fin 2) * 32 + 1 * j.val = j.val; omega)
  rw [he]
  exact V_v9 m c j

/-- The third layer's weights. -/
theorem blk6 (c : Dev nD) (t : Fin cfg0.N) (j : Fin 32) (k : Fin 32) :
    iblk m c 6 t (ix2 j k) = (m ((c : Thread nD τ).loc main_arg6)) (ix2 k j) := by
  obtain ⟨-, -, -, -, -, -, -, -, -, -, -, -, e0, e1, -⟩ := idx_facts t
  show V m c main_v5 (((cfg0.win 6).blk t).view.emb (ix2 j k)) = _
  have he : ((cfg0.win 6).blk t).view.emb (ix2 j k) = ix2 j k := funext fun d => Fin.ext (by
    match d with
    | ⟨0, _⟩ => show win0_6.index t (0 : Fin 2) * 32 + 1 * j.val = j.val; omega
    | ⟨1, _⟩ => show win0_6.index t (1 : Fin 2) * 32 + 1 * k.val = k.val; omega)
  rw [he]
  exact V_v5 m c j k

/-- The third layer's biases. -/
theorem blk7 (c : Dev nD) (t : Fin cfg0.N) (k : Fin 32) :
    iblk m c 7 t (ix2 (0 : Fin 1) k) = (m ((c : Thread nD τ).loc main_arg7)) (ix1 k) := by
  obtain ⟨-, -, -, -, -, -, -, -, -, -, -, -, -, -, e0, e1, -⟩ := idx_facts t
  show V m c main_v10 (((cfg0.win 7).blk t).view.emb (ix2 (0 : Fin 1) k)) = _
  have he : ((cfg0.win 7).blk t).view.emb (ix2 (0 : Fin 1) k) = ix2 (0 : Fin 1) k := funext fun d => Fin.ext (by
    match d with
    | ⟨0, _⟩ => show win0_7.index t (0 : Fin 2) * 1 + 1 * 0 = 0; omega
    | ⟨1, _⟩ => show win0_7.index t (1 : Fin 2) * 32 + 1 * k.val = k.val; omega)
  rw [he]
  exact V_v10 m c k

/-- The last layer's weights, a column. -/
theorem blk8 (c : Dev nD) (t : Fin cfg0.N) (k : Fin 32) :
    iblk m c 8 t (ix2 k (0 : Fin 1)) = (m ((c : Thread nD τ).loc main_arg8)) (ix2 (0 : Fin 1) k) := by
  obtain ⟨-, -, -, -, -, -, -, -, -, -, -, -, -, -, -, -, e0, e1, -⟩ := idx_facts t
  show V m c main_v7 (((cfg0.win 8).blk t).view.emb (ix2 k (0 : Fin 1))) = _
  have he : ((cfg0.win 8).blk t).view.emb (ix2 k (0 : Fin 1)) = ix2 k (0 : Fin 1) := funext fun d => Fin.ext (by
    match d with
    | ⟨0, _⟩ => show win0_8.index t (0 : Fin 2) * 32 + 1 * k.val = k.val; omega
    | ⟨1, _⟩ => show win0_8.index t (1 : Fin 2) * 1 + 1 * 0 = 0; omega)
  rw [he]
  exact V_v7 m c k 0

/-- The last layer's bias. -/
theorem blk9 (c : Dev nD) (t : Fin cfg0.N) :
    iblk m c 9 t (ix2 (0 : Fin 1) (0 : Fin 1)) = (m ((c : Thread nD τ).loc main_arg9)) (ix1 (0 : Fin 1)) := by
  obtain ⟨-, -, -, -, -, -, -, -, -, -, -, -, -, -, -, -, -, -, e0, e1, -⟩ := idx_facts t
  show V m c main_v11 (((cfg0.win 9).blk t).view.emb (ix2 (0 : Fin 1) (0 : Fin 1))) = _
  have he : ((cfg0.win 9).blk t).view.emb (ix2 (0 : Fin 1) (0 : Fin 1)) = ix2 (0 : Fin 1) (0 : Fin 1) :=
    funext fun d => Fin.ext (by
      match d with
      | ⟨0, _⟩ => show win0_9.index t (0 : Fin 2) * 1 + 1 * 0 = 0; omega
      | ⟨1, _⟩ => show win0_9.index t (1 : Fin 2) * 1 + 1 * 0 = 0; omega)
  rw [he]
  exact V_v11 m c

/-! ## The body on one point's blocks -/

/-- The network is determined by its weights, its biases and the two rows, entry by entry. -/
theorem eval_congr {W W' : Fin 128 → Fin 1260 → EReal} {B B' : Fin 128 → EReal} {W1 W1' : Fin 32 → Fin 256 → EReal}
    {B1 B1' : Fin 32 → EReal} {W2 W2' : Fin 32 → Fin 32 → EReal} {B2 B2' : Fin 32 → EReal} {Wo Wo' : Fin 32 → EReal}
    {bo bo' : EReal} {x x' y y' : Fin 1260 → EReal}
    (hW : ∀ a f, W a f = W' a f) (hB : ∀ a, B a = B' a) (hW1 : ∀ j l, W1 j l = W1' j l) (hB1 : ∀ j, B1 j = B1' j)
    (hW2 : ∀ k j, W2 k j = W2' k j) (hB2 : ∀ k, B2 k = B2' k) (hWo : ∀ k, Wo k = Wo' k) (hbo : bo = bo')
    (hx : ∀ f, x f = x' f) (hy : ∀ f, y f = y' f) :
    score Wo bo (layer W2 B2 (layer W1 B1 (join (layer W B x) (layer W B y))))
      = score Wo' bo' (layer W2' B2' (layer W1' B1' (join (layer W' B' x') (layer W' B' y')))) := by
  obtain rfl : W = W' := funext fun a => funext (hW a)
  obtain rfl : B = B' := funext hB
  obtain rfl : W1 = W1' := funext fun j => funext (hW1 j)
  obtain rfl : B1 = B1' := funext hB1
  obtain rfl : W2 = W2' := funext fun k => funext (hW2 k)
  obtain rfl : B2 = B2' := funext hB2
  obtain rfl : Wo = Wo' := funext hWo
  obtain rfl : x = x' := funext hx
  obtain rfl : y = y' := funext hy
  subst hbo
  rfl

/-- Entry `(r, l)` of the block the body stores, from the blocks it loads: the network at position `128 r + l`
    of the two feature blocks. -/
theorem body_apply (x0 x1 : Vec Ideal S1024x1260 .f32) (x2 : Vec Ideal S1260x128 .bf16) (x3 : Vec Ideal S1x128 .f32)
    (x4 : Vec Ideal S256x32 .bf16) (x5 : Vec Ideal S1x32 .f32) (x6 : Vec Ideal S32x32 .bf16) (x7 : Vec Ideal S1x32 .f32)
    (x8 : Vec Ideal S32x1 .bf16) (x9 : Vec Ideal S1x1 .f32) (r : Fin 8) (l : Fin 128) :
    k0_pay1 (F := Ideal) (k0_pay2 x2 x3 x0 x1 x4 x5) x6 x7 x8 x9 (ix2 r l)
      = score (fun k => x8 (ix2 k (0 : Fin 1))) (x9 (ix2 (0 : Fin 1) (0 : Fin 1)))
          (layer (fun k j => x6 (ix2 j k)) (fun k => x7 (ix2 (0 : Fin 1) k))
            (layer (fun j l => x4 (ix2 l j)) (fun j => x5 (ix2 (0 : Fin 1) j))
              (join
                (layer (fun a f => x2 (ix2 f a)) (fun a => x3 (ix2 (0 : Fin 1) a))
                  (fun f => x0 (ix2 (⟨r.val * 128 + l.val, by have := r.isLt; have := l.isLt; omega⟩ : Fin 1024) f)))
                (layer (fun a f => x2 (ix2 f a)) (fun a => x3 (ix2 (0 : Fin 1) a))
                  (fun f => x1 (ix2 (⟨r.val * 128 + l.val, by have := r.isLt; have := l.isLt; omega⟩ : Fin 1024) f)))))) :=
  (Kern.pay1_apply _ x6 x7 x8 x9 r l).trans
    (congrArg (score _ _) (funext fun k => layer_congr _ _ (fun j => Kern.pay2_apply x2 x3 x0 x1 x4 x5 _ j) k))

/-! ## The output array -/

/-- What the `[512, 128]` array ends holding: entry `(R, l)` is the network at position `128 R + l`. -/
def out12 (c : Dev nD) : S512x128.Idx → Elt Ideal .f32 := fun i =>
  net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    ⟨(i 0).val * 128 + (i 1).val, by have h0 : (i 0).val < 512 := (i 0).isLt; have h1 : (i 1).val < 128 := (i 1).isLt; omega⟩

/-- What point `t` writes back is block `t` of that array. -/
theorem flushed_eq (c : Dev nD) (t : Fin cfg0.N) :
    (dats m 0 c).flushed 10 t = ((cfg0.win 10).blk t).view.read (Elt Ideal) (out12 m c) := by
  show (cfg0.win 10).cut (grid0.coords t) ((dats m 0 c).after 10 t) = _
  rw [after0_10]
  unfold out0_10
  rw [View.canon_unit_zero hz]
  simp only [View.ld_unit_zero (S := S1260x128) hz, View.ld_unit_zero (S := S1x128) hz, View.ld_unit_zero (S := S1024x1260) hz,
    View.ld_unit_zero (S := S256x32) hz, View.ld_unit_zero (S := S1x32) hz, View.ld_unit_zero (S := S32x32) hz,
    View.ld_unit_zero (S := S32x1) hz, View.ld_unit_zero (S := S1x1) hz]
  funext y
  obtain ⟨r, l, rfl⟩ : ∃ (r : Fin 8) (l : Fin 128), y = ix2 r l := ⟨y 0, y 1, eq_ix2 y⟩
  obtain ⟨-, -, -, -, -, -, -, -, -, -, -, -, -, -, -, -, -, -, -, -, e0, e1⟩ := idx_facts t
  show k0_pay1 (F := Ideal) (k0_pay2 (iblk m c 2 t) (iblk m c 3 t) (iblk m c 0 t) (iblk m c 1 t) (iblk m c 4 t) (iblk m c 5 t))
      (iblk m c 6 t) (iblk m c 7 t) (iblk m c 8 t) (iblk m c 9 t) (ix2 r l)
    = out12 m c (((cfg0.win 10).blk t).view.emb (ix2 r l))
  refine (body_apply (iblk m c 0 t) (iblk m c 1 t) (iblk m c 2 t) (iblk m c 3 t) (iblk m c 4 t) (iblk m c 5 t)
    (iblk m c 6 t) (iblk m c 7 t) (iblk m c 8 t) (iblk m c 9 t) r l).trans ?_
  have hq : (⟨(((cfg0.win 10).blk t).view.emb (ix2 r l) 0).val * 128 + (((cfg0.win 10).blk t).view.emb (ix2 r l) 1).val,
      by have h0 : (((cfg0.win 10).blk t).view.emb (ix2 r l) 0).val < 512 := (((cfg0.win 10).blk t).view.emb (ix2 r l) 0).isLt
         have h1 : (((cfg0.win 10).blk t).view.emb (ix2 r l) 1).val < 128 := (((cfg0.win 10).blk t).view.emb (ix2 r l) 1).isLt
         omega⟩ : Fin 65536)
      = pos t ⟨r.val * 128 + l.val, by have := r.isLt; have := l.isLt; omega⟩ := Fin.ext (by
    show (win0_10.index t (0 : Fin 2) * 8 + 1 * r.val) * 128 + (win0_10.index t (1 : Fin 2) * 128 + 1 * l.val)
      = t.val * 1024 + (r.val * 128 + l.val)
    omega)
  unfold out12
  rw [hq]
  exact eval_congr (fun a f => blk2 m c t f a) (fun a => blk3 m c t a) (fun j l => blk4 m c t l j) (fun j => blk5 m c t j)
    (fun k j => blk6 m c t j k) (fun k => blk7 m c t k) (fun k => blk8 m c t k) (blk9 m c t)
    (fun f => blk0 m c t _ f) (fun f => blk1 m c t _ f)

/-- An index of the array is in point `t`'s block iff its row is among the block's eight rows. -/
theorem mem_blk (t : Fin cfg0.N) (i : S512x128.Idx) :
    i ∈ ((cfg0.win 10).blk t).view.set ↔ ∀ a : Fin 2, win0_10.index t a * S8x128.size a ≤ (i a).val
      ∧ (i a).val < win0_10.index t a * S8x128.size a + S8x128.size a := by
  show i ∈ ((View.whole main_v12).slice (win0_10.rect t)).set ↔ _
  rw [View.set_slice_whole, Rect.mem_set_unit]
  exact Iff.rfl

/-- The 64 blocks cover the array: row `R` is in the block of point `R / 8`. -/
theorem cover (i : S512x128.Idx) :
    ∃ t : Fin cfg0.N, (cfg0.win 10).flush t = true ∧ i ∈ ((cfg0.win 10).blk t).view.set := by
  have hi0 : (i 0).val < 512 := (i 0).isLt
  have hi1 : (i 1).val < 128 := (i 1).isLt
  have hN : cfg0.N = 64 := N_0
  have ht : (i 0).val / 8 < cfg0.N := by rw [hN]; omega
  obtain ⟨-, -, -, -, -, -, -, -, -, -, -, -, -, -, -, -, -, -, -, -, e0, e1⟩ := idx_facts ⟨(i 0).val / 8, ht⟩
  refine ⟨⟨(i 0).val / 8, ht⟩, flush0_10 _, ?_⟩
  rw [mem_blk]
  intro a
  match a with
  | ⟨0, _⟩ =>
    show win0_10.index ⟨(i 0).val / 8, ht⟩ (0 : Fin 2) * 8 ≤ (i 0).val
      ∧ (i 0).val < win0_10.index ⟨(i 0).val / 8, ht⟩ (0 : Fin 2) * 8 + 8
    rw [e0]
    show (i 0).val / 8 * 8 ≤ (i 0).val ∧ (i 0).val < (i 0).val / 8 * 8 + 8
    omega
  | ⟨1, _⟩ =>
    show win0_10.index ⟨(i 0).val / 8, ht⟩ (1 : Fin 2) * 128 ≤ (i 1).val
      ∧ (i 1).val < win0_10.index ⟨(i 0).val / 8, ht⟩ (1 : Fin 2) * 128 + 128
    rw [e1]
    omega

/-- The array after the run. -/
theorem final (c : Dev nD) : (dats m 0 c).arrAt 10 cfg0.N = out12 m c :=
  (dats m 0 c).arrAt_eq_of_cover 10 (out12 m c) (fun t _ => flushed_eq m c t) cover

end Cert.Nnue.Blocks

end
-- ==== Proof.KernelRun.lean ====
/-
  The kernel program's result.

  After the region one host operation re-lays the `[512, 128]` array as one column of 65536 rows: row `b` of the
  column is entry `(b / 128, b % 128)` of the array, which is the network's value at position `b`.  The program's
  run, with that result named and the arguments unchanged, follows from the run of the region.
-/
import proofs.«180332_j6846177869883_2_alg».proof.Proof.Blocks

noncomputable section

namespace Cert.Nnue.KernelRun

open Cert.KernelIdeal Cert.KernelIdeal.Gen Idealize.ShloMosaic Idealize.ShloMosaic.TcCoe Idealize.ShloMosaic.ValueIdx
open Idealize.SL.Sem Idealize.ShloMosaic.StableHlo Idealize.ShloMosaic.Pipeline Cert.Nnue Cert.Nnue.Blocks

variable (m : (ℓ : Loc nD τ sig) → Buf (Elt Ideal) ℓ)

/-- The result buffer after the host operation that follows the region: the array the region leaves, re-laid. -/
theorem tail_eq (c : Dev nD) :
    (Pipeline.afterTail₀ cfgs (dats m) 0 (V0 m) [hostOps1] c main_v13 : S65536x1.Idx → EReal)
      = shapeCast S65536x1 (out12 m c) shapeCasts_S512x128_S65536x1 := by
  unfold Pipeline.afterTail₀
  show StableHlo.after hostOps1 _ (Proc.devRef .tc main_v13) = _
  after_results
  have hw : Pipeline.withArrays spec0 c (V0 m c) (fun w => (dats m 0 c).arrAt w cfg0.N) (Proc.devRef .tc main_v12)
      = out12 m c := (Pipeline.withArrays_arr spec0 launch0.win.arr_inj c _ _ 10).trans (final m c)
  exact congrArg (fun A : S512x128.Idx → EReal => shapeCast S65536x1 A shapeCasts_S512x128_S65536x1) hw

/-- Row `b` of the re-laid column is the network at position `b`. -/
theorem result_eq (c : Dev nD) :
    shapeCast S65536x1 (out12 m c) shapeCasts_S512x128_S65536x1
      = netArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext i
  obtain ⟨b, z, rfl⟩ : ∃ (b : Fin 65536) (z : Fin 1), i = ix2 b z := ⟨i 0, i 1, eq_ix2 i⟩
  obtain rfl : z = 0 := Subsingleton.elim _ _
  have hb := b.isLt
  refine (shapeCast_apply _ _ (ix2 b (0 : Fin 1))
    (ix2 (⟨b.val / 128, by omega⟩ : Fin 512) (⟨b.val % 128, Nat.mod_lt _ (by decide)⟩ : Fin 128)) ?_).trans ?_
  · rw [Shape.rowMajor_val_two, Shape.rowMajor_val_two]
    show b.val / 128 * 128 + b.val % 128 = b.val * 1 + 0
    omega
  · refine congrArg (net _ _ _ _ _ _ _ _ _ _) (Fin.ext ?_)
    show b.val / 128 * 128 + b.val % 128 = b.val
    omega

/-- The kernel program's run: every weakly fair execution terminates with the result buffer holding the network's
    values, row by row, and the arguments as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v13) = netArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      (((h c).2 main_v13 (Pipeline.mem_restRefs_of main_v13 (by decide) (by decide))).trans (tail_eq m c)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩) (run_main m ρ)

end Cert.Nnue.KernelRun

end
-- ==== Proof.lean ====
/-
  The kernel and its reference compute one function of the arguments.

  Both programs evaluate a small network on each of 65536 positions: two rows of 1260 features per position go
  through a shared first layer (128 outputs each, clamped to the unit interval), the two results are laid side by
  side, and layers of 32, 32 and one output follow, the first two clamped and the last through the logistic
  function.  The reference does this on whole arrays; the kernel on 64 blocks of 1024 positions, with the weights
  transposed and the biases reshaped beforehand, each block's 1024 results stored as an `[8, 128]` tile of a
  `[512, 128]` array that is re-laid as one column afterwards.  Over the extended reals a change of float format is the
  identity, a matrix product into a zero accumulator is the plain finite sum the reference's contraction is, and
  `1 / (1 + exp (-x))` is the logistic function, so position by position the two results are the same term
  (`Cert.Nnue.net`): no law of arithmetic beyond `0 + x = x` is used, and the finiteness of the inputs is not needed.

  The three programs' frames are their generated runs; the idealization rewrote nothing, so there is nothing to
  preserve.
-/
import proofs.«180332_j6846177869883_2_alg».proof.Defs
import proofs.«180332_j6846177869883_2_alg».proof.Proof.Gen.Kernel
import proofs.«180332_j6846177869883_2_alg».proof.Proof.Gen.Kernel.Skeleton
import proofs.«180332_j6846177869883_2_alg».proof.Proof.Gen.Kernel.Launch
import proofs.«180332_j6846177869883_2_alg».proof.Proof.Gen.Kernel.Points
import proofs.«180332_j6846177869883_2_alg».proof.Proof.Gen.Kernel.Frame
import proofs.«180332_j6846177869883_2_alg».proof.Proof.Gen.KernelIdeal
import proofs.«180332_j6846177869883_2_alg».proof.Proof.Gen.KernelIdeal.Skeleton
import proofs.«180332_j6846177869883_2_alg».proof.Proof.Gen.KernelIdeal.Launch
import proofs.«180332_j6846177869883_2_alg».proof.Proof.Gen.KernelIdeal.Points
import proofs.«180332_j6846177869883_2_alg».proof.Proof.Gen.KernelIdeal.Frame
import proofs.«180332_j6846177869883_2_alg».proof.Proof.Gen.ReferenceIdeal
import proofs.«180332_j6846177869883_2_alg».proof.Proof.Gen.ReferenceIdeal.Run
import proofs.«180332_j6846177869883_2_alg».proof.Proof.Gen.ReferenceIdeal.Read
import proofs.«180332_j6846177869883_2_alg».proof.Proof.Gen.Pre_finite_inputs
import proofs.«180332_j6846177869883_2_alg».proof.Proof.RefNet
import proofs.«180332_j6846177869883_2_alg».proof.Proof.KernelRun
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network's values, row by row. -/
theorem algebraic : Cert.algebraic_KernelIdeal_ReferenceIdeal := by
  intro m ρ m' ρ' _ hagree
  refine ⟨fun c => Cert.Nnue.netArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.Nnue.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, Cert.Nnue.Ref.result_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
